-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000x128 : Shape := ⟨2, ![50000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 73
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .bf16⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .bf16⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S50000x128, .f32⟩
  | .hbm, ⟨28, _⟩ => ⟨S50000x128, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S64x128, .f32⟩
  | .hbm, ⟨37, _⟩ => ⟨S64x128, .f32⟩
  | .hbm, ⟨38, _⟩ => ⟨S128x128, .f32⟩
  | .hbm, ⟨39, _⟩ => ⟨S128, .f32⟩
  | .hbm, ⟨40, _⟩ => ⟨S1x128, .f32⟩
  | .hbm, ⟨41, _⟩ => ⟨S50000x128, .bf16⟩
  | .hbm, ⟨42, _⟩ => ⟨S100000x64, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .bf16⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S50000x128, .f32⟩
  | .hbm, ⟨58, _⟩ => ⟨S50000x128, .bf16⟩
  | .hbm, ⟨59, _⟩ => ⟨S64x64, .f32⟩
  | .hbm, ⟨60, _⟩ => ⟨S64x64, .f32⟩
  | .hbm, ⟨61, _⟩ => ⟨S_, .f32⟩
  | .hbm, ⟨62, _⟩ => ⟨S64x64, .f32⟩
  | .hbm, ⟨63, _⟩ => ⟨S64x128, .f32⟩
  | .hbm, ⟨64, _⟩ => ⟨S64x128, .f32⟩
  | .hbm, ⟨65, _⟩ => ⟨S128x128, .f32⟩
  | .hbm, ⟨66, _⟩ => ⟨S64x128, .f32⟩
  | .hbm, ⟨67, _⟩ => ⟨S64x128, .f32⟩
  | .hbm, ⟨68, _⟩ => ⟨S128x128, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S100000x64_S50000x128 : S100000x64.ShapeCasts S50000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S64x64, .f32⟩
  | .hbm, ⟨55, _⟩ => ⟨S100000x64, .f32⟩
  | .hbm, ⟨56, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValue.lean ====
/-
  The idealized kernel's run, with its result array named.

  Every weakly fair execution of the program terminates without a fault; the result array ends at the contents the
  last stretch of host operations leaves in it, a fold from the launch memory through the two regions, and the eight
  argument arrays end as they were launched.  The execution argument is the one that shows the arguments unchanged,
  read once more at the result's buffer: the final thread state holds every unscoped buffer at the last boundary's
  contents, and the result's buffer is one of them.
-/
import proofs.«143869_j25744033973010_2_alg».proof.Proof.Gen.KernelIdeal.Frame

set_option maxRecDepth 16384

noncomputable section

namespace Cert.GraphConv.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v56) = W5 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v56 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.GraphConv.KernelRun

end
-- ==== Proof.KernelHost.lean ====
/-
  The host operations around the kernel's two regions, read as functions of the buffers they start from.

  Before the first region the host takes the two rows of the edge table as a source column and a destination column,
  gathers the source rows of the node features and adds them onto zero at the destination rows (the neighbour
  sums), re-reads the sums and the features two nodes per row, puts each [128, 128] weight together from the
  transposed [64, 64] weight and a zero block, and lays the bias twice in a row.  Between the regions it re-reads the
  first region's packed result one node per row, takes its neighbour sums over the same two columns, and prepares
  the second layer's operands in the same way.  After the second region it re-reads the packed result one node per
  row.  Each lemma below names what one buffer holds after a stretch, whatever the stretch started from.
-/
import proofs.«143869_j25744033973010_2_alg».proof.Proof.Gen.KernelIdeal.Launch
import Idealize.ShloMosaic.Lib.StableHlo.Run
import Idealize.ShloMosaic.PureOps.Ideal

noncomputable section

namespace Cert.GraphConv.Host

open Cert.KernelIdeal Cert.KernelIdeal.Gen
open Idealize.ShloMosaic Idealize.ShloMosaic.TcCoe Idealize.SL.Sem Idealize.ShloMosaic.StableHlo

/-- The source column of the edge table: its first row. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destination column of the edge table: its second row. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The neighbour sums of the node features `h`: for each edge the row of `h` at its source (a negative source
    counted from the end) is added onto zero at the edge's destination row. -/
def aggV (src dst : (⟨S1600000, .i32⟩ : BufTy).Contents (Elt Ideal)) (h : (⟨S100000x64, .bf16⟩ : BufTy).Contents (Elt Ideal)) :
    (⟨S100000x64, .f32⟩ : BufTy).Contents (Elt Ideal) :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (extf .f32 (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) bitsLt_bf16_f32)

/-- The [128, 128] weight as the host puts it together: [Wᵀ 0] above [0 Wᵀ]. -/
def bdK (W : (⟨S64x64, .f32⟩ : BufTy).Contents (Elt Ideal)) : (⟨S128x128, .f32⟩ : BufTy).Contents (Elt Ideal) :=
  concatenate S128x128 0
    [⟨S64x128, concatenate S64x128 1 [⟨S64x64, transpose S64x64 [1, 0] W transposes_S64x64_S64x64_1_0⟩,
        ⟨S64x64, broadcastInDim S64x64 ![] bcast_S_S64x64 (constant (F := Ideal) S_ .f32 0x00000000#32)⟩] concatenates_S64x64_S64x64_S64x128_d1⟩,
     ⟨S64x128, concatenate S64x128 1 [⟨S64x64, broadcastInDim S64x64 ![] bcast_S_S64x64 (constant (F := Ideal) S_ .f32 0x00000000#32)⟩,
        ⟨S64x64, transpose S64x64 [1, 0] W transposes_S64x64_S64x64_1_0⟩] concatenates_S64x64_S64x64_S64x128_d1⟩]
    concatenates_S64x128_S64x128_S128x128_d0

/-- The bias laid twice end to end, kept as one row. -/
def biasK (b : (⟨S64, .f32⟩ : BufTy).Contents (Elt Ideal)) : (⟨S1x128, .f32⟩ : BufTy).Contents (Elt Ideal) :=
  shapeCast S1x128 (concatenate S128 0 [⟨S64, b⟩, ⟨S64, b⟩] concatenates_S64_S64_S128_d0) shapeCasts_S128_S1x128

variable (W : Valuation τ sig (Elt Ideal))

/-! ## The stretch before the first region -/

theorem pre_src : StableHlo.after (hostOps0 (F := Ideal)) W (Proc.devRef .tc main_v1) = srcOf (W (Proc.devRef .tc main_arg1)) := by
  after_results_simp
  rfl

theorem pre_dst : StableHlo.after (hostOps0 (F := Ideal)) W (Proc.devRef .tc main_v3) = dstOf (W (Proc.devRef .tc main_arg1)) := by
  after_results_simp
  rfl

theorem pre_sums : StableHlo.after (hostOps0 (F := Ideal)) W (Proc.devRef .tc main_v16)
    = shapeCast S50000x128 (aggV (srcOf (W (Proc.devRef .tc main_arg1))) (dstOf (W (Proc.devRef .tc main_arg1)))
        (truncf (F := Ideal) .bf16 (W (Proc.devRef .tc main_arg0)) bitsLt_bf16_f32)) shapeCasts_S100000x64_S50000x128 := by
  after_results_simp
  rfl

theorem pre_features : StableHlo.after (hostOps0 (F := Ideal)) W (Proc.devRef .tc main_v17)
    = shapeCast S50000x128 (W (Proc.devRef .tc main_arg0)) shapeCasts_S100000x64_S50000x128 := by
  after_results_simp
  rfl

theorem pre_wrel : StableHlo.after (hostOps0 (F := Ideal)) W (Proc.devRef .tc main_v23) = bdK (W (Proc.devRef .tc main_arg2)) := by
  after_results_simp
  unfold bdK
  refine congrArg₂ (fun a b => concatenate S128x128 0 [⟨S64x128, a⟩, ⟨S64x128, b⟩] concatenates_S64x128_S64x128_S128x128_d0) ?_ ?_
  · after_results_simp
    refine congrArg₂ (fun a b => concatenate S64x128 1 [⟨S64x64, a⟩, ⟨S64x64, b⟩] concatenates_S64x64_S64x64_S64x128_d1) ?_ ?_
    · after_results_simp
    · after_results_simp
  · after_results_simp
    refine congrArg₂ (fun a b => concatenate S64x128 1 [⟨S64x64, a⟩, ⟨S64x64, b⟩] concatenates_S64x64_S64x64_S64x128_d1) ?_ ?_
    · after_results_simp
    · after_results_simp

theorem pre_wroot : StableHlo.after (hostOps0 (F := Ideal)) W (Proc.devRef .tc main_v26) = bdK (W (Proc.devRef .tc main_arg4)) := by
  after_results_simp
  unfold bdK
  refine congrArg₂ (fun a b => concatenate S128x128 0 [⟨S64x128, a⟩, ⟨S64x128, b⟩] concatenates_S64x128_S64x128_S128x128_d0) ?_ ?_
  · after_results_simp
    refine congrArg₂ (fun a b => concatenate S64x128 1 [⟨S64x64, a⟩, ⟨S64x64, b⟩] concatenates_S64x64_S64x64_S64x128_d1) ?_ ?_
    · after_results_simp
    · after_results_simp
  · after_results_simp
    refine congrArg₂ (fun a b => concatenate S64x128 1 [⟨S64x64, a⟩, ⟨S64x64, b⟩] concatenates_S64x64_S64x64_S64x128_d1) ?_ ?_
    · after_results_simp
    · after_results_simp

theorem pre_bias : StableHlo.after (hostOps0 (F := Ideal)) W (Proc.devRef .tc main_v28) = biasK (W (Proc.devRef .tc main_arg3)) := by
  after_results_simp
  unfold biasK
  funext i
  refine congrFun (congrArg (fun v => shapeCast S1x128 v shapeCasts_S128_S1x128) ?_) i
  refine congrArg₂ (fun a b => concatenate S128 0 [⟨S64, a⟩, ⟨S64, b⟩] concatenates_S64_S64_S128_d0) ?_ ?_
  · after_results_simp
  · after_results_simp

theorem pre_arg5 : StableHlo.after (hostOps0 (F := Ideal)) W (Proc.devRef .tc main_arg5) = W (Proc.devRef .tc main_arg5) := by
  after_results_simp
theorem pre_arg6 : StableHlo.after (hostOps0 (F := Ideal)) W (Proc.devRef .tc main_arg6) = W (Proc.devRef .tc main_arg6) := by
  after_results_simp
theorem pre_arg7 : StableHlo.after (hostOps0 (F := Ideal)) W (Proc.devRef .tc main_arg7) = W (Proc.devRef .tc main_arg7) := by
  after_results_simp

/-! ## The stretch between the regions -/

theorem mid_sums : StableHlo.after (hostOps1 (F := Ideal)) W (Proc.devRef .tc main_v42)
    = shapeCast S50000x128 (aggV (W (Proc.devRef .tc main_v1)) (W (Proc.devRef .tc main_v3))
        (shapeCast S100000x64 (W (Proc.devRef .tc main_v29)) shapeCasts_S50000x128_S100000x64)) shapeCasts_S100000x64_S50000x128 := by
  after_results_simp
  rfl

theorem mid_features : StableHlo.after (hostOps1 (F := Ideal)) W (Proc.devRef .tc main_v43)
    = shapeCast S50000x128 (shapeCast S100000x64 (W (Proc.devRef .tc main_v29)) shapeCasts_S50000x128_S100000x64)
        shapeCasts_S100000x64_S50000x128 := by
  after_results_simp
  rfl

theorem mid_wrel : StableHlo.after (hostOps1 (F := Ideal)) W (Proc.devRef .tc main_v49) = bdK (W (Proc.devRef .tc main_arg5)) := by
  after_results_simp
  unfold bdK
  refine congrArg₂ (fun a b => concatenate S128x128 0 [⟨S64x128, a⟩, ⟨S64x128, b⟩] concatenates_S64x128_S64x128_S128x128_d0) ?_ ?_
  · after_results_simp
    refine congrArg₂ (fun a b => concatenate S64x128 1 [⟨S64x64, a⟩, ⟨S64x64, b⟩] concatenates_S64x64_S64x64_S64x128_d1) ?_ ?_
    · after_results_simp
    · after_results_simp
  · after_results_simp
    refine congrArg₂ (fun a b => concatenate S64x128 1 [⟨S64x64, a⟩, ⟨S64x64, b⟩] concatenates_S64x64_S64x64_S64x128_d1) ?_ ?_
    · after_results_simp
    · after_results_simp

theorem mid_wroot : StableHlo.after (hostOps1 (F := Ideal)) W (Proc.devRef .tc main_v52) = bdK (W (Proc.devRef .tc main_arg7)) := by
  after_results_simp
  unfold bdK
  refine congrArg₂ (fun a b => concatenate S128x128 0 [⟨S64x128, a⟩, ⟨S64x128, b⟩] concatenates_S64x128_S64x128_S128x128_d0) ?_ ?_
  · after_results_simp
    refine congrArg₂ (fun a b => concatenate S64x128 1 [⟨S64x64, a⟩, ⟨S64x64, b⟩] concatenates_S64x64_S64x64_S64x128_d1) ?_ ?_
    · after_results_simp
    · after_results_simp
  · after_results_simp
    refine congrArg₂ (fun a b => concatenate S64x128 1 [⟨S64x64, a⟩, ⟨S64x64, b⟩] concatenates_S64x64_S64x64_S64x128_d1) ?_ ?_
    · after_results_simp
    · after_results_simp

theorem mid_bias : StableHlo.after (hostOps1 (F := Ideal)) W (Proc.devRef .tc main_v54) = biasK (W (Proc.devRef .tc main_arg6)) := by
  after_results_simp
  unfold biasK
  funext i
  refine congrFun (congrArg (fun v => shapeCast S1x128 v shapeCasts_S128_S1x128) ?_) i
  refine congrArg₂ (fun a b => concatenate S128 0 [⟨S64, a⟩, ⟨S64, b⟩] concatenates_S64_S64_S128_d0) ?_ ?_
  · after_results_simp
  · after_results_simp

/-! ## The stretch after the second region -/

theorem post_result : StableHlo.after (hostOps2 (F := Ideal)) W (Proc.devRef .tc main_v56)
    = shapeCast S100000x64 (W (Proc.devRef .tc main_v55)) shapeCasts_S50000x128_S100000x64 := by
  after_results_simp
  rfl

end Cert.GraphConv.Host

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Payload.lean ====
/-
  The combine step's stored value, read at one entry.

  The body of a layer's combine step loads a block of 5000 packed rows of the neighbour sums and of the node
  features, the two [128, 128] weights and the bias row, and stores one value: the two products added, plus the bias
  row laid over every row (and, in the first layer, the positive part of that).  On the extended reals a change of
  float format and a cast to the same shape do nothing, and a product accumulated onto the zero array is the plain
  sum of products, so the stored value at row p, column q of the block is

      (∑ k, agg (p, k) · Wa (k, q) + ∑ k, h (p, k) · Wh (k, q)) + b (0, q)

  (its maximum with 0 in the first layer): it depends on row p of the two loaded blocks, column q of the two weights
  and entry q of the bias row, and on nothing else.
-/
import proofs.«143869_j25744033973010_2_alg».proof.Proof.Gen.KernelIdeal.Skeleton
import proofs.«143869_j25744033973010_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphConv.Kernel

open Cert.KernelIdeal Cert.KernelIdeal.Gen Idealize.ShloMosaic Idealize.ShloMosaic.ValueIdx

/-- A block of 5000 rows times a [128, 128] weight, accumulated onto zero: at (p, q) the sum over the 128 columns of
    row p of the block against column q of the weight, whatever the operands' float formats. -/
theorem block_product_apply {φ₁ φ₂ : FTy} (L : FVec Ideal S5000x128 φ₁) (R : FVec Ideal S128x128 φ₂)
    (p : Fin 5000) (q : Fin 128) :
    matmul dot_S5000x128_S128x128_S5000x128_1_0_0_1_n_n none L R (constant S5000x128 .f32 0x00000000#32) (ix2 p q)
      = ∑ k : Fin 128, L (ix2 p k) * R (ix2 k q) :=
  Cert.PlainMatmul.zero_acc_apply dot_S5000x128_S128x128_S5000x128_1_0_0_1_n_n.wf none L R p q

/-- The first layer's stored value at row p, column q of the block: the two products added, plus the bias row's entry
    q, and the positive part of that. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q))
          + x4 (ix2 (0 : Fin 1) q)) 0 := by
  have e1 := block_product_apply (truncf .bf16 x0 bitsLt_bf16_f32) (truncf .bf16 x2 bitsLt_bf16_f32) p q
  have e2 := block_product_apply (truncf .bf16 x1 bitsLt_bf16_f32) (truncf .bf16 x3 bitsLt_bf16_f32) p q
  have e3 := broadcastTo_1b_ab_apply x4 broadcasts_S1x128_S5000x128 p q
  unfold k0_pay1
  simp only [shapeCast_self]
  show max ((_ + _) + _) (Ideal.ofBits .f32 0x00000000#32) = _
  rw [e1, e2, e3, Ideal.ofBits_zero_f32]
  rfl

/-- The second layer's stored value at row p, column q of the block: the two products added, plus the bias row's
    entry q. -/
theorem pay1_apply (x0 : Vec Ideal S5000x128 .f32) (x1 : Vec Ideal S5000x128 .bf16) (x2 x3 : Vec Ideal S128x128 .f32)
    (x4 : Vec Ideal S1x128 .f32) (p : Fin 5000) (q : Fin 128) :
    k1_pay1 (F := Ideal) x0 x1 x2 x3 x4 (ix2 p q)
      = (∑ k : Fin 128, x0 (ix2 p k) * x2 (ix2 k q) + ∑ k : Fin 128, x1 (ix2 p k) * x3 (ix2 k q))
          + x4 (ix2 (0 : Fin 1) q) := by
  have e1 := block_product_apply (truncf .bf16 x0 bitsLt_bf16_f32) (truncf .bf16 x2 bitsLt_bf16_f32) p q
  have e2 := block_product_apply (φ₁ := .bf16) (x1 : FVec Ideal S5000x128 .bf16) (truncf .bf16 x3 bitsLt_bf16_f32) p q
  have e3 := broadcastTo_1b_ab_apply x4 broadcasts_S1x128_S5000x128 p q
  unfold k1_pay1
  simp only [shapeCast_self]
  show (_ + _) + _ = _
  rw [e1, e2, e3]
  rfl

end Cert.GraphConv.Kernel

end
-- ==== Proof.LibBlockDiagSum.lean ====
/-
  A sum against a block-diagonal factor collapses to the one block it keeps.

  Over any additive commutative monoid with a multiplication and a one for which `0 * k = 0`, `x * 0 = 0` and
  `1 * k = k` (the three facts are hypotheses, so that no distributive law is asked for): index the
  summation range `Fin N` in blocks of `n` consecutive positions, so that position `j` lies in block
  `j / n` at offset `j % n`. If the factor `E j` is one on block `b` and zero on every other block, then
  `∑ j, X j * (E j * K (j % n))` is the sum over the offsets `s` of block `b` alone,
  `∑ s, X (b * n + s) * K s`: every other term is `X j * (0 * K _) = 0`. No cancellation is used, only
  `0 * k = 0`, `x * 0 = 0` and `1 * k = k`, so the statement holds on the extended reals as well.
-/
import Mathlib.Algebra.BigOperators.Group.Finset.Basic
import Mathlib.Data.Fintype.Basic
import Mathlib.Algebra.BigOperators.Fin

namespace BlockDiag

open Finset

/-- The sum over `Fin N` of `X j * (E j * K (j % n))`, where `E` is the indicator of block `b` (the positions
    `j` with `j / n = b`), is the sum over that block's `n` offsets of `X (b * n + s) * K s`. -/
theorem sum_blockDiag {M : Type*} [AddCommMonoid M] [Mul M] [One M]
    (zero_mul' : ∀ k : M, 0 * k = 0) (mul_zero' : ∀ x : M, x * 0 = 0) (one_mul' : ∀ k : M, 1 * k = k)
    {N n : ℕ} (hn : 0 < n) (b : ℕ)
    (hb : ∀ s : Fin n, b * n + s.val < N) (X E : Fin N → M) (K : Fin n → M)
    (hE : ∀ j : Fin N, E j = if j.val / n = b then 1 else 0) :
    ∑ j : Fin N, X j * (E j * K ⟨j.val % n, Nat.mod_lt _ hn⟩) = ∑ s : Fin n, X ⟨b * n + s.val, hb s⟩ * K s := by
  symm
  refine Finset.sum_of_injOn (fun s : Fin n => (⟨b * n + s.val, hb s⟩ : Fin N)) ?_ ?_ ?_ ?_
  · intro s _ s' _ h
    have h' : b * n + s.val = b * n + s'.val := congrArg Fin.val h
    exact Fin.ext (Nat.add_left_cancel h')
  · intro s _
    exact Finset.mem_coe.2 (Finset.mem_univ _)
  · intro j _ hj
    have hne : ¬ j.val / n = b := by
      intro h
      apply hj
      refine ⟨⟨j.val % n, Nat.mod_lt _ hn⟩, Finset.mem_coe.2 (Finset.mem_univ _), Fin.ext ?_⟩
      show b * n + j.val % n = j.val
      rw [← h, Nat.mul_comm]
      exact Nat.div_add_mod _ _
    rw [hE j, if_neg hne, zero_mul', mul_zero']
  · intro s _
    have h1 : (b * n + s.val) / n = b := by
      rw [Nat.mul_comm, Nat.mul_add_div hn, Nat.div_eq_of_lt s.isLt, Nat.add_zero]
    have h2 : (b * n + s.val) % n = s.val := by
      rw [Nat.mul_comm, Nat.mul_add_mod, Nat.mod_eq_of_lt s.isLt]
    have hE' : E ⟨b * n + s.val, hb s⟩ = 1 := by rw [hE]; exact if_pos h1
    have hK : (⟨(b * n + s.val) % n, Nat.mod_lt _ hn⟩ : Fin n) = s := Fin.ext h2
    show X ⟨b * n + s.val, hb s⟩ * K s = X ⟨b * n + s.val, hb s⟩ * (E ⟨b * n + s.val, hb s⟩ * K ⟨(b * n + s.val) % n, Nat.mod_lt _ hn⟩)
    rw [hE', hK, one_mul']

end BlockDiag
-- ==== Proof.Spec.lean ====
/-
  Two graph-convolution layers as functions of the argument arrays, entry by entry, on the extended reals.

  A layer takes the neighbour sums `agg` and the node features `h`, both [100000, 64], two [64, 64] weights and a
  bias [64], and gives at node p and feature q

      (∑ k, agg (p, k) · Wrel (q, k) + b q) + ∑ k, h (p, k) · Wroot (q, k).

  The packed form lays two consecutive nodes side by side in one row of 128 entries ([100000, 64] read as
  [50000, 128]: entry (r, c) is node 2 r + c / 64, feature c % 64), multiplies by a [128, 128] weight that carries the
  transposed [64, 64] weight twice on its diagonal and zero elsewhere, and adds the bias laid twice in a row.  The
  off-diagonal products are x · 0 = 0 for every extended real x, infinite ones included, so the 128-term sum of the
  packed row is the 64-term sum of the layer: the two forms agree entry by entry with no finiteness assumed.
-/
import Idealize.ShloMosaic.Lib.ValueIdx
import proofs.«143869_j25744033973010_2_alg».proof.Proof.LibBlockDiagSum

noncomputable section

open scoped BigOperators

namespace Cert.GraphConv

open Idealize.ShloMosaic Idealize.ShloMosaic.ValueIdx

/-- Node features: one row of 64 per node. -/
abbrev Nodes : Shape := ⟨2, ![100000, 64]⟩
/-- The same entries with two consecutive nodes per row of 128. -/
abbrev Packed : Shape := ⟨2, ![50000, 128]⟩
/-- A layer's weight. -/
abbrev Wt : Shape := ⟨2, ![64, 64]⟩
/-- A layer's bias. -/
abbrev Bias : Shape := ⟨1, ![64]⟩
/-- The packed form's weight. -/
abbrev WtBd : Shape := ⟨2, ![128, 128]⟩
/-- The packed form's bias, one row. -/
abbrev BiasRow : Shape := ⟨2, ![1, 128]⟩

/-! ## A layer -/

/-- A layer at node `p`, feature `q`. -/
def linAt (agg h : Nodes.Idx → EReal) (Wrel : Wt.Idx → EReal) (b : Bias.Idx → EReal) (Wroot : Wt.Idx → EReal)
    (p : Fin 100000) (q : Fin 64) : EReal :=
  (∑ k : Fin 64, agg (ix2 p k) * Wrel (ix2 q k) + b (ix1 q)) + ∑ k : Fin 64, h (ix2 p k) * Wroot (ix2 q k)

/-- A layer as an array. -/
def lin (agg h : Nodes.Idx → EReal) (Wrel : Wt.Idx → EReal) (b : Bias.Idx → EReal) (Wroot : Wt.Idx → EReal) :
    Nodes.Idx → EReal :=
  fun i => linAt agg h Wrel b Wroot ⟨(i 0).val, idx2_lt0 i⟩ ⟨(i 1).val, idx2_lt1 i⟩

theorem lin_apply (agg h : Nodes.Idx → EReal) (Wrel : Wt.Idx → EReal) (b : Bias.Idx → EReal) (Wroot : Wt.Idx → EReal)
    (p : Fin 100000) (q : Fin 64) : lin agg h Wrel b Wroot (ix2 p q) = linAt agg h Wrel b Wroot p q := rfl

/-- The positive part, entry by entry. -/
def relu (x : Nodes.Idx → EReal) : Nodes.Idx → EReal := fun i => max (x i) 0

/-- Two layers with the positive part between them; `A` gives the neighbour sums of an array of node features. -/
def out (A : (Nodes.Idx → EReal) → Nodes.Idx → EReal) (x : Nodes.Idx → EReal)
    (W1rel : Wt.Idx → EReal) (b1 : Bias.Idx → EReal) (W1root : Wt.Idx → EReal)
    (W2rel : Wt.Idx → EReal) (b2 : Bias.Idx → EReal) (W2root : Wt.Idx → EReal) : Nodes.Idx → EReal :=
  lin (A (relu (lin (A x) x W1rel b1 W1root))) (relu (lin (A x) x W1rel b1 W1root)) W2rel b2 W2root

/-! ## The packed form -/

/-- Two consecutive nodes per row: entry (r, c) is node 2 r + c / 64, feature c % 64. -/
def pack {α : Type} (f : Nodes.Idx → α) : Packed.Idx → α := fun i =>
  f (ix2 (⟨2 * (i 0).val + (i 1).val / 64, by have := idx2_lt0 i; have := idx2_lt1 i; omega⟩ : Fin 100000)
    (⟨(i 1).val % 64, Nat.mod_lt _ (by decide)⟩ : Fin 64))

/-- Back to one node per row: node n, feature j is entry (n / 2, (n % 2) · 64 + j). -/
def unpack {α : Type} (g : Packed.Idx → α) : Nodes.Idx → α := fun i =>
  g (ix2 (⟨(i 0).val / 2, by have := idx2_lt0 i; omega⟩ : Fin 50000)
    (⟨(i 0).val % 2 * 64 + (i 1).val, by have := idx2_lt1 i; omega⟩ : Fin 128))

/-- The transposed weight twice on the diagonal of a [128, 128] array, zero off it: entry (k, c) is Wrel (c % 64, k % 64)
    when k and c lie in the same half, else 0. -/
def bd (W : Wt.Idx → EReal) : WtBd.Idx → EReal := fun i =>
  if (i 0).val / 64 = (i 1).val / 64 then
    W (ix2 (⟨(i 1).val % 64, Nat.mod_lt _ (by decide)⟩ : Fin 64) (⟨(i 0).val % 64, Nat.mod_lt _ (by decide)⟩ : Fin 64))
  else 0

/-- The bias laid twice in one row of 128. -/
def dup (b : Bias.Idx → EReal) : BiasRow.Idx → EReal := fun i =>
  b (ix1 (⟨(i 1).val % 64, Nat.mod_lt _ (by decide)⟩ : Fin 64))

/-- The packed layer at row `r`, column `c`: two 128-term products added, then the bias row. -/
def packedLinAt (A H : Packed.Idx → EReal) (Wa Wh : WtBd.Idx → EReal) (bb : BiasRow.Idx → EReal)
    (r : Fin 50000) (c : Fin 128) : EReal :=
  (∑ k : Fin 128, A (ix2 r k) * Wa (ix2 k c) + ∑ k : Fin 128, H (ix2 r k) * Wh (ix2 k c)) + bb (ix2 (0 : Fin 1) c)

/-- The packed layer as an array. -/
def packedLin (A H : Packed.Idx → EReal) (Wa Wh : WtBd.Idx → EReal) (bb : BiasRow.Idx → EReal) : Packed.Idx → EReal :=
  fun i => packedLinAt A H Wa Wh bb ⟨(i 0).val, idx2_lt0 i⟩ ⟨(i 1).val, idx2_lt1 i⟩

/-- The positive part of a packed array. -/
def reluP (x : Packed.Idx → EReal) : Packed.Idx → EReal := fun i => max (x i) 0

end Cert.GraphConv

end
-- ==== Proof.Regions.lean ====
/-
  Each layer's combine step, from blocks to the whole packed array.

  A layer's combine step runs over ten points.  Point t holds rows 5000 t … 5000 t + 4999 of the packed neighbour
  sums and of the packed node features (block t of a [50000, 128] array cut into blocks of [5000, 128]), the two
  [128, 128] weights and the bias row whole, and writes back block t of the result.  Entry (p, q) of the block it
  writes is the stored value at (p, q), which depends on row p of the two input blocks only, that is on row
  5000 t + p of the two packed arrays: so it is the packed layer's entry (5000 t + p, q).  The ten blocks tile the
  [50000, 128] result (row r lies in block r / 5000), hence the array the step leaves is the packed layer of the
  arrays it found, entry by entry.
-/
import proofs.«143869_j25744033973010_2_alg».proof.Proof.Gen.KernelIdeal.Frame
import proofs.«143869_j25744033973010_2_alg».proof.Proof.Payload
import proofs.«143869_j25744033973010_2_alg».proof.Proof.Spec
import Idealize.ShloMosaic.Lib.Pipeline.Value

noncomputable section

open scoped BigOperators

open Idealize.ShloMosaic Idealize.ShloMosaic.TcCoe Idealize.SL.Sem
open Idealize.ShloMosaic.Pipeline (Dat)

namespace Cert.GraphConv.Kernel

open Cert.KernelIdeal Cert.KernelIdeal.Gen Idealize.ShloMosaic.ValueIdx Cert.GraphConv

/-- The zero offsets of a load or store of a whole block. -/
theorem zero_offsets : (![0, 0] : Fin 2 → Nat) = fun _ => 0 := funext fun a => by fin_cases a <;> rfl

/-! ## One entry of a block, over any loaded values

  If the two loaded row blocks are rows 5000 t … of two packed arrays A and H, the stored value at y of the block is the
  packed layer of A and H at the entry 5000 t rows further down. -/

/-- First layer. -/
theorem layer1_block_entry (x0 x1 : Vec Ideal S5000x128 .f32) (A H : Packed.Idx → EReal) (Wa Wh : WtBd.Idx → EReal)
    (bb : BiasRow.Idx → EReal) (t : ℕ)
    (h0 : ∀ (p : Fin 5000) (k : Fin 128) (r : Fin 50000), r.val = 5000 * t + p.val → x0 (ix2 p k) = A (ix2 r k))
    (h1 : ∀ (p : Fin 5000) (k : Fin 128) (r : Fin 50000), r.val = 5000 * t + p.val → x1 (ix2 p k) = H (ix2 r k))
    (y : S5000x128.Idx) (i : Packed.Idx) (hi0 : (i 0).val = 5000 * t + (y 0).val) (hi1 : (i 1).val = (y 1).val) :
    k0_pay1 (F := Ideal) x0 x1 (Wa : Vec Ideal S128x128 .f32) (Wh : Vec Ideal S128x128 .f32) (bb : Vec Ideal S1x128 .f32) y
      = reluP (packedLin A H Wa Wh bb) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  have e0 : ∀ k : Fin 128, x0 (ix2 p k) = A (ix2 r k) := fun k => h0 p k r hi0
  have e1 : ∀ k : Fin 128, x1 (ix2 p k) = H (ix2 r k) := fun k => h1 p k r hi0
  rw [pay0_apply]
  show _ = max (packedLinAt A H Wa Wh bb r s) 0
  unfold packedLinAt
  simp only [e0, e1]

/-- Second layer (no positive part; the node features arrive in the narrower float format, the same extended reals). -/
theorem layer2_block_entry (x0 : Vec Ideal S5000x128 .f32) (x1 : Vec Ideal S5000x128 .bf16) (A H : Packed.Idx → EReal)
    (Wa Wh : WtBd.Idx → EReal) (bb : BiasRow.Idx → EReal) (t : ℕ)
    (h0 : ∀ (p : Fin 5000) (k : Fin 128) (r : Fin 50000), r.val = 5000 * t + p.val → x0 (ix2 p k) = A (ix2 r k))
    (h1 : ∀ (p : Fin 5000) (k : Fin 128) (r : Fin 50000), r.val = 5000 * t + p.val → x1 (ix2 p k) = H (ix2 r k))
    (y : S5000x128.Idx) (i : Packed.Idx) (hi0 : (i 0).val = 5000 * t + (y 0).val) (hi1 : (i 1).val = (y 1).val) :
    k1_pay1 (F := Ideal) x0 x1 (Wa : Vec Ideal S128x128 .f32) (Wh : Vec Ideal S128x128 .f32) (bb : Vec Ideal S1x128 .f32) y
      = packedLin A H Wa Wh bb i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  have e0 : ∀ k : Fin 128, x0 (ix2 p k) = A (ix2 r k) := fun k => h0 p k r hi0
  have e1 : ∀ k : Fin 128, x1 (ix2 p k) = H (ix2 r k) := fun k => h1 p k r hi0
  rw [pay1_apply]
  show _ = packedLinAt A H Wa Wh bb r s
  unfold packedLinAt
  simp only [e0, e1]

variable (V : (c : Dev nD) → (b : Ref sig .tc) → Buf (Elt Ideal) ((c : Thread nD τ).loc b))

/-! ## First layer: the blocks at a point -/

/-- The printed index maps over the ten points: the row blocks (windows 0, 1, 5) sit at block (t, 0), the weights and
    the bias row (windows 2, 3, 4) at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the neighbour sums' block at point t is row 5000 t + p of the packed neighbour sums. -/
theorem agg_rows0 (c : Dev nD) (t : Fin cfg0.N) (p : Fin 5000) (k : Fin 128) (r : Fin 50000)
    (hr : r.val = 5000 * t.val + p.val) :
    (iblk0 V c 0 t : Vec Ideal S5000x128 .f32) (ix2 p k) = (V c main_v16 : Packed.Idx → EReal) (ix2 r k) := by
  obtain ⟨e0, e1, -⟩ := index_maps0 t
  unfold iblk0
  rw [View.read_apply]
  show V c main_v16 _ = V c main_v16 _
  refine congrArg (V c main_v16) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of the node features' block at point t is row 5000 t + p of the packed node features. -/
theorem feat_rows0 (c : Dev nD) (t : Fin cfg0.N) (p : Fin 5000) (k : Fin 128) (r : Fin 50000)
    (hr : r.val = 5000 * t.val + p.val) :
    (iblk0 V c 1 t : Vec Ideal S5000x128 .f32) (ix2 p k) = (V c main_v17 : Packed.Idx → EReal) (ix2 r k) := by
  obtain ⟨-, -, e0, e1, -⟩ := index_maps0 t
  unfold iblk0
  rw [View.read_apply]
  show V c main_v17 _ = V c main_v17 _
  refine congrArg (V c main_v17) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The neighbour weight's block at every point is the whole weight. -/
theorem wrel_whole0 (c : Dev nD) (t : Fin cfg0.N) :
    (iblk0 V c 2 t : Vec Ideal S128x128 .f32) = (V c main_v23 : WtBd.Idx → EReal) := by
  obtain ⟨-, -, -, -, e0, e1, -⟩ := index_maps0 t
  funext y
  unfold iblk0
  rw [View.read_apply]
  show V c main_v23 _ = V c main_v23 y
  refine congrArg (V c main_v23) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The root weight's block at every point is the whole weight. -/
theorem wroot_whole0 (c : Dev nD) (t : Fin cfg0.N) :
    (iblk0 V c 3 t : Vec Ideal S128x128 .f32) = (V c main_v26 : WtBd.Idx → EReal) := by
  obtain ⟨-, -, -, -, -, -, e0, e1, -⟩ := index_maps0 t
  funext y
  unfold iblk0
  rw [View.read_apply]
  show V c main_v26 _ = V c main_v26 y
  refine congrArg (V c main_v26) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's block at every point is the whole row. -/
theorem bias_whole0 (c : Dev nD) (t : Fin cfg0.N) :
    (iblk0 V c 4 t : Vec Ideal S1x128 .f32) = (V c main_v28 : BiasRow.Idx → EReal) := by
  obtain ⟨-, -, -, -, -, -, -, -, e0, e1, -⟩ := index_maps0 t
  funext y
  unfold iblk0
  rw [View.read_apply]
  show V c main_v28 _ = V c main_v28 y
  refine congrArg (V c main_v28) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## First layer: what a point writes back, the cover, the array -/

/-- The packed first layer, with its positive part, of the arrays the step finds. -/
abbrev layer1 (c : Dev nD) : Packed.Idx → EReal :=
  reluP (packedLin (V c main_v16) (V c main_v17) (V c main_v23) (V c main_v26) (V c main_v28))

/-- What point t writes back is block t of the packed first layer. -/
theorem written_back0 (c : Dev nD) (t : Fin cfg0.N) :
    (dat0 (F := Ideal) V c).flushed 5 t = ((cfg0.win 5).blk t).view.read (Elt Ideal) (layer1 V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [wrel_whole0 V c t, wroot_whole0 V c t, bias_whole0 V c t]
  obtain ⟨-, -, -, -, -, -, -, -, -, -, e0, e1⟩ := index_maps0 t
  funext j
  rw [View.read_apply]
  refine layer1_block_entry (iblk0 V c 0 t) (iblk0 V c 1 t) (V c main_v16) (V c main_v17) (V c main_v23) (V c main_v26)
    (V c main_v28) t.val (agg_rows0 V c t) (feat_rows0 V c t) ((cfg0.win 5).xinj (grid0.coords t) j)
    (((cfg0.win 5).blk t).view.emb j) ?_ ?_
  · show win0_5.index t (0 : Fin 2) * 5000 + 1 * (j 0).val = 5000 * t.val + (j 0).val
    rw [e0]; omega
  · show win0_5.index t (1 : Fin 2) * 128 + 1 * (j 1).val = (j 1).val
    rw [e1]; omega

/-- An entry of the result lies in point t's block iff each coordinate lies in the block's range on its axis. -/
theorem mem_block0 (t : Fin cfg0.N) (i : Packed.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v29).slice (win0_5.rect t)).set ↔ _
  rw [View.set_slice_whole, Rect.mem_set_unit]
  exact Iff.rfl

/-- Row r of the result lies in the block of point r / 5000, and every point writes its block back. -/
theorem covered0 (i : Packed.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : grid0.N = 10 := N_0
  have ht : (i 0).val / 5000 < grid0.N := by omega
  obtain ⟨-, -, -, -, -, -, -, -, -, -, e0, e1⟩ := index_maps0 ⟨(i 0).val / 5000, ht⟩
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- THE FIRST LAYER'S ARRAY: after the ten points the result holds the packed first layer, with its positive part, of the
    arrays the step found. -/
theorem region0_array (c : Dev nD) :
    (dat0 (F := Ideal) V c).arrAt 5 cfg0.N
      = Cert.GraphConv.reluP (Cert.GraphConv.packedLin (V c main_v16) (V c main_v17) (V c main_v23) (V c main_v26) (V c main_v28)) :=
  (dat0 (F := Ideal) V c).arrAt_eq_of_cover 5 (layer1 V c) (fun t _ => written_back0 V c t) (covered0)

/-! ## Second layer: the blocks at a point -/

/-- The printed index maps over the ten points: the row blocks (windows 0, 1, 5) sit at block (t, 0), the weights and
    the bias row (windows 2, 3, 4) at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the neighbour sums' block at point t is row 5000 t + p of the packed neighbour sums. -/
theorem agg_rows1 (c : Dev nD) (t : Fin cfg1.N) (p : Fin 5000) (k : Fin 128) (r : Fin 50000)
    (hr : r.val = 5000 * t.val + p.val) :
    (iblk1 V c 0 t : Vec Ideal S5000x128 .f32) (ix2 p k) = (V c main_v42 : Packed.Idx → EReal) (ix2 r k) := by
  obtain ⟨e0, e1, -⟩ := index_maps1 t
  unfold iblk1
  rw [View.read_apply]
  show V c main_v42 _ = V c main_v42 _
  refine congrArg (V c main_v42) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the node features' block at point t is row 5000 t + p of the packed node features. -/
theorem feat_rows1 (c : Dev nD) (t : Fin cfg1.N) (p : Fin 5000) (k : Fin 128) (r : Fin 50000)
    (hr : r.val = 5000 * t.val + p.val) :
    (iblk1 V c 1 t : Vec Ideal S5000x128 .bf16) (ix2 p k) = (V c main_v43 : Packed.Idx → EReal) (ix2 r k) := by
  obtain ⟨-, -, e0, e1, -⟩ := index_maps1 t
  unfold iblk1
  rw [View.read_apply]
  show V c main_v43 _ = V c main_v43 _
  refine congrArg (V c main_v43) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The neighbour weight's block at every point is the whole weight. -/
theorem wrel_whole1 (c : Dev nD) (t : Fin cfg1.N) :
    (iblk1 V c 2 t : Vec Ideal S128x128 .f32) = (V c main_v49 : WtBd.Idx → EReal) := by
  obtain ⟨-, -, -, -, e0, e1, -⟩ := index_maps1 t
  funext y
  unfold iblk1
  rw [View.read_apply]
  show V c main_v49 _ = V c main_v49 y
  refine congrArg (V c main_v49) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The root weight's block at every point is the whole weight. -/
theorem wroot_whole1 (c : Dev nD) (t : Fin cfg1.N) :
    (iblk1 V c 3 t : Vec Ideal S128x128 .f32) = (V c main_v52 : WtBd.Idx → EReal) := by
  obtain ⟨-, -, -, -, -, -, e0, e1, -⟩ := index_maps1 t
  funext y
  unfold iblk1
  rw [View.read_apply]
  show V c main_v52 _ = V c main_v52 y
  refine congrArg (V c main_v52) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row's block at every point is the whole row. -/
theorem bias_whole1 (c : Dev nD) (t : Fin cfg1.N) :
    (iblk1 V c 4 t : Vec Ideal S1x128 .f32) = (V c main_v54 : BiasRow.Idx → EReal) := by
  obtain ⟨-, -, -, -, -, -, -, -, e0, e1, -⟩ := index_maps1 t
  funext y
  unfold iblk1
  rw [View.read_apply]
  show V c main_v54 _ = V c main_v54 y
  refine congrArg (V c main_v54) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## Second layer: what a point writes back, the cover, the array -/

/-- The packed second layer of the arrays the step finds. -/
abbrev layer2 (c : Dev nD) : Packed.Idx → EReal :=
  packedLin (V c main_v42) (V c main_v43) (V c main_v49) (V c main_v52) (V c main_v54)

/-- What point t writes back is block t of the packed second layer. -/
theorem written_back1 (c : Dev nD) (t : Fin cfg1.N) :
    (dat1 (F := Ideal) V c).flushed 5 t = ((cfg1.win 5).blk t).view.read (Elt Ideal) (layer2 V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [wrel_whole1 V c t, wroot_whole1 V c t, bias_whole1 V c t]
  obtain ⟨-, -, -, -, -, -, -, -, -, -, e0, e1⟩ := index_maps1 t
  funext j
  rw [View.read_apply]
  refine layer2_block_entry (iblk1 V c 0 t) (iblk1 V c 1 t) (V c main_v42) (V c main_v43) (V c main_v49) (V c main_v52)
    (V c main_v54) t.val (agg_rows1 V c t) (feat_rows1 V c t) ((cfg1.win 5).xinj (grid1.coords t) j)
    (((cfg1.win 5).blk t).view.emb j) ?_ ?_
  · show win1_5.index t (0 : Fin 2) * 5000 + 1 * (j 0).val = 5000 * t.val + (j 0).val
    rw [e0]; omega
  · show win1_5.index t (1 : Fin 2) * 128 + 1 * (j 1).val = (j 1).val
    rw [e1]; omega

/-- An entry of the result lies in point t's block iff each coordinate lies in the block's range on its axis. -/
theorem mem_block1 (t : Fin cfg1.N) (i : Packed.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v55).slice (win1_5.rect t)).set ↔ _
  rw [View.set_slice_whole, Rect.mem_set_unit]
  exact Iff.rfl

/-- Row r of the result lies in the block of point r / 5000, and every point writes its block back. -/
theorem covered1 (i : Packed.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : grid1.N = 10 := N_1
  have ht : (i 0).val / 5000 < grid1.N := by omega
  obtain ⟨-, -, -, -, -, -, -, -, -, -, e0, e1⟩ := index_maps1 ⟨(i 0).val / 5000, ht⟩
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- THE SECOND LAYER'S ARRAY: after the ten points the result holds the packed second layer of the arrays the step
    found. -/
theorem region1_array (c : Dev nD) :
    (dat1 (F := Ideal) V c).arrAt 5 cfg1.N
      = Cert.GraphConv.packedLin (V c main_v42) (V c main_v43) (V c main_v49) (V c main_v52) (V c main_v54) :=
  (dat1 (F := Ideal) V c).arrAt_eq_of_cover 5 (layer2 V c) (fun t _ => written_back1 V c t) (covered1)

end Cert.GraphConv.Kernel

end
-- ==== Proof.LibColumnJoin.lean ====
/-
  Two [a, 64] arrays joined along the columns into one [a, 128] array, read at an entry.

  Column d < 64 of the joined array is column d of the first piece; column 64 + d is column d of the second.  This is
  how a real part and an imaginary part are laid side by side so that one 128-deep product does the work of two
  64-deep ones.
-/
import Idealize.ShloMosaic.Lib.Pipeline.Value
import Idealize.ShloMosaic.Lib.ValueIdx

noncomputable section

namespace Cert.ColumnJoin

open Idealize.ShloMosaic Idealize.ShloMosaic.ValueIdx

variable {α : Type}

/-- A column in the first half of the joined array reads the first piece. -/
theorem left_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨d.val, by omega⟩)
      = x₁ (ix2 p d) :=
  concatenate_pair_apply_left 1 x₁ x₂ h _ rfl (ix2 p d) fun b => by
    match b with
    | ⟨0, _⟩ => rfl
    | ⟨1, _⟩ => rfl

/-- A column in the second half of the joined array reads the second piece, 64 columns to the left. -/
theorem right_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨64 + d.val, by omega⟩)
      = x₂ (ix2 p d) :=
  concatenate_pair_apply_right 1 x₁ x₂ h _ rfl rfl (ix2 p d)
    (fun b hb => by
      match b with
      | ⟨0, _⟩ => rfl
      | ⟨1, _⟩ => exact absurd rfl hb)
    (by show d.val + 64 = 64 + d.val; omega)

end Cert.ColumnJoin

end
-- ==== Proof.LibEdgeForms.lean ====
/-
  Readings at an entry (p, q) of a two-axis array, for the operations that pick rows out of a table and stack them.

  * A vector [b] repeated down the rows of an [a, b] array reads at (p, q) its entry q; a one-row array [1, b] repeated
    down a rows reads at (p, q) its entry (0, q).
  * The slice of row 0 of an [a, b] array, kept as [1, b], reads at (0, q) the entry (0, q); taken out as a vector and
    repeated down m rows (directly, or laid as a row first) it reads at (p, q) the entry (0, q).
  * Two arrays [n₁, b] and [n₂, b] stacked along the rows read, at a row below n₁, the first at that row and, at a row
    p at or past n₁, the second at row p − n₁.
  * A gather of whole rows of an [N, C] table, one start word per result row held as a column [R, 1], reads at (r, c)
    the table's entry (ρ r, c), where ρ r is the word of row r read signed and clamped into [0, N − 1].  The row ρ r
    does not depend on the number of columns C.
  * An ordinary product [a, n] × [n, b] of the host, on the extended reals, is at (p, q) the sum over k of
    left (p, k) · right (k, q).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.EdgeForms

open Idealize.ShloMosaic Idealize.ShloMosaic.ValueIdx

variable {α : Type}

/-! ## Repeating a vector or a row down the rows -/

/-- A vector [b] repeated down the rows of an [a, b] array: at (p, q) its entry q. -/
theorem vector_rows_apply {a b : ℕ} (v : (⟨1, ![b]⟩ : Shape).Idx → α)
    (h : (⟨1, ![b]⟩ : Shape).BroadcastsInDim ⟨2, ![a, b]⟩ ![1]) (p : Fin a) (q : Fin b) :
    broadcastInDim ⟨2, ![a, b]⟩ ![1] h v (ix2 p q) = v (ix1 q) := by
  refine broadcastInDim_apply _ h v (ix2 p q) (ix1 q) fun ax => ?_
  match ax with
  | ⟨0, _⟩ =>
    show q.val = if b = 1 then 0 else q.val
    split
    · have := q.isLt; omega
    · rfl

/-- A one-row array [1, b] repeated down a rows: at (p, q) its entry (0, q). -/
theorem row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-! ## Row 0 of a table -/

/-- The slice of row 0 of an [a, b] array, kept as a one-row array: at (0, q) the entry (0, q). -/
theorem first_row_apply {a b : ℕ} (x : (⟨2, ![a, b]⟩ : Shape).Idx → α)
    (h : (⟨2, ![a, b]⟩ : Shape).Slices ![0, 0] ⟨2, ![1, b]⟩) (ha : 0 < a) (u : Fin 1) (q : Fin b) :
    extractStridedSlice ⟨2, ![1, b]⟩ ![0, 0] x h (ix2 u q) = x (ix2 (⟨0, ha⟩ : Fin a) q) := by
  refine extractStridedSlice_apply _ x h (ix2 u q) (ix2 (⟨0, ha⟩ : Fin a) q) fun ax => ?_
  match ax with
  | ⟨0, _⟩ =>
    show 0 = 0 + u.val
    have := u.isLt; omega
  | ⟨1, _⟩ =>
    show q.val = 0 + q.val
    omega

/-- Row 0 of an [a, b] array taken out as a vector [b]: at q the entry (0, q). -/
theorem first_row_vector_apply {a b : ℕ} (x : (⟨2, ![a, b]⟩ : Shape).Idx → α)
    (hs : (⟨2, ![a, b]⟩ : Shape).Slices ![0, 0] ⟨2, ![1, b]⟩) (hc : (⟨2, ![1, b]⟩ : Shape).ShapeCasts ⟨1, ![b]⟩)
    (ha : 0 < a) (q : Fin b) :
    shapeCast ⟨1, ![b]⟩ (extractStridedSlice ⟨2, ![1, b]⟩ ![0, 0] x hs) hc (ix1 q) = x (ix2 (⟨0, ha⟩ : Fin a) q) :=
  (shapeCast_1a_a_apply _ hc q).trans (first_row_apply x hs ha 0 q)

/-- Row 0 of an [a, b] array, as a vector, repeated down m rows: at (p, q) the entry (0, q). -/
theorem first_row_rows_apply {a b m : ℕ} (x : (⟨2, ![a, b]⟩ : Shape).Idx → α)
    (hs : (⟨2, ![a, b]⟩ : Shape).Slices ![0, 0] ⟨2, ![1, b]⟩) (hc : (⟨2, ![1, b]⟩ : Shape).ShapeCasts ⟨1, ![b]⟩)
    (h1 : (⟨1, ![b]⟩ : Shape).BroadcastsInDim ⟨2, ![m, b]⟩ ![1]) (ha : 0 < a) (p : Fin m) (q : Fin b) :
    broadcastInDim ⟨2, ![m, b]⟩ ![1] h1 (shapeCast ⟨1, ![b]⟩ (extractStridedSlice ⟨2, ![1, b]⟩ ![0, 0] x hs) hc) (ix2 p q)
      = x (ix2 (⟨0, ha⟩ : Fin a) q) :=
  (vector_rows_apply _ h1 p q).trans (first_row_vector_apply x hs hc ha q)

/-- Row 0 of an [a, b] array, as a vector, laid as a one-row array and repeated down m rows: at (p, q) the entry (0, q). -/
theorem first_row_laid_rows_apply {a b m : ℕ} (x : (⟨2, ![a, b]⟩ : Shape).Idx → α)
    (hs : (⟨2, ![a, b]⟩ : Shape).Slices ![0, 0] ⟨2, ![1, b]⟩) (hc : (⟨2, ![1, b]⟩ : Shape).ShapeCasts ⟨1, ![b]⟩)
    (h1 : (⟨1, ![b]⟩ : Shape).BroadcastsInDim ⟨2, ![1, b]⟩ ![1])
    (h2 : (⟨2, ![1, b]⟩ : Shape).BroadcastsInDim ⟨2, ![m, b]⟩ ![0, 1]) (ha : 0 < a) (p : Fin m) (q : Fin b) :
    broadcastInDim ⟨2, ![m, b]⟩ ![0, 1] h2
        (broadcastInDim ⟨2, ![1, b]⟩ ![1] h1 (shapeCast ⟨1, ![b]⟩ (extractStridedSlice ⟨2, ![1, b]⟩ ![0, 0] x hs) hc)) (ix2 p q)
      = x (ix2 (⟨0, ha⟩ : Fin a) q) :=
  (row_repeat_apply _ h2 p q).trans ((vector_rows_apply _ h1 0 q).trans (first_row_vector_apply x hs hc ha q))

/-- A vector [b] laid as a one-row array and repeated down m rows: at (p, q) its entry q. -/
theorem vector_laid_rows_apply {b m : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![m, b]⟩ ![0, 1]) (p : Fin m) (q : Fin b) :
    broadcastInDim ⟨2, ![m, b]⟩ ![0, 1] h2 (broadcastInDim ⟨2, ![1, b]⟩ ![1] h1 v) (ix2 p q) = v (ix1 q) :=
  (row_repeat_apply _ h2 p q).trans (vector_rows_apply v h1 0 q)

/-! ## Two arrays stacked along the rows -/

/-- Two arrays stacked along the rows, at a row below the first's height: the first array at that row. -/
theorem stacked_top_apply {n₁ n₂ n b : ℕ} (x₁ : (⟨2, ![n₁, b]⟩ : Shape).Idx → α) (x₂ : (⟨2, ![n₂, b]⟩ : Shape).Idx → α)
    (h : Shape.Concatenates [(⟨2, ![n₁, b]⟩ : Shape), ⟨2, ![n₂, b]⟩] ⟨2, ![n, b]⟩ 0)
    (p : Fin n) (q : Fin b) (hp : p.val < n₁) :
    concatenate ⟨2, ![n, b]⟩ 0 [⟨⟨2, ![n₁, b]⟩, x₁⟩, ⟨⟨2, ![n₂, b]⟩, x₂⟩] h (ix2 p q) = x₁ (ix2 (⟨p.val, hp⟩ : Fin n₁) q) := by
  refine concatenate_pair_apply_left 0 x₁ x₂ h (ix2 p q) rfl (ix2 (⟨p.val, hp⟩ : Fin n₁) q) fun ax => ?_
  match ax with
  | ⟨0, _⟩ => rfl
  | ⟨1, _⟩ => rfl

/-- Two arrays stacked along the rows, at a row p at or past the first's height n₁: the second array at row p − n₁. -/
theorem stacked_bottom_apply {n₁ n₂ n b : ℕ} (x₁ : (⟨2, ![n₁, b]⟩ : Shape).Idx → α) (x₂ : (⟨2, ![n₂, b]⟩ : Shape).Idx → α)
    (h : Shape.Concatenates [(⟨2, ![n₁, b]⟩ : Shape), ⟨2, ![n₂, b]⟩] ⟨2, ![n, b]⟩ 0)
    (p : Fin n) (q : Fin b) (hp : n₁ ≤ p.val) (hp₂ : p.val - n₁ < n₂) :
    concatenate ⟨2, ![n, b]⟩ 0 [⟨⟨2, ![n₁, b]⟩, x₁⟩, ⟨⟨2, ![n₂, b]⟩, x₂⟩] h (ix2 p q)
      = x₂ (ix2 (⟨p.val - n₁, hp₂⟩ : Fin n₂) q) := by
  refine concatenate_pair_apply_right 0 x₁ x₂ h (ix2 p q) rfl rfl (ix2 (⟨p.val - n₁, hp₂⟩ : Fin n₂) q)
    (fun ax hax => ?_) ?_
  · match ax with
    | ⟨0, _⟩ => exact absurd (Fin.ext rfl) hax
    | ⟨1, _⟩ => rfl
  · show p.val - n₁ + n₁ = p.val
    omega

/-! ## A gather of whole rows -/

/-- The dimension numbers of a gather of whole rows: an operand [N, C], one start word per result row held as a column
    [R, 1], a result [R, C]. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of an N-row table that result row r of a gather of whole rows reads: the start word at (r, 0) read as a
    signed integer and clamped into [0, N − 1]. -/
def gatheredRow {N R w : ℕ} (hN : 0 < N) (idx : IVec ⟨2, ![R, 1]⟩ w) (r : Fin R) : Fin N :=
  ⟨min (idx (ix2 r (0 : Fin 1))).toInt.toNat (N - 1), by omega⟩

/-- A gather of whole rows at (r, c): the table's entry (ρ r, c), ρ r the clamped start word of row r. -/
theorem row_gather_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (gatheredRow hN idx r) c) := by
  unfold Host.gather
  refine congrArg x (funext fun a => Fin.ext ?_)
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    have hst : (rowGatherDims N C R wf).start (ix2 r c) idx 1 = 0 := by
      unfold GatherDims.start
      rw [dif_neg fun h => absurd (List.mem_singleton.mp h) (by decide : (1 : Fin 2) ≠ 0)]
    have hoff : (rowGatherDims N C R wf).offCoord (ix2 r c) 1 = c.val := by
      unfold GatherDims.offCoord
      rw [dif_pos ((GatherDims.mem_sKept _ _).mpr
        ⟨fun h => absurd (List.mem_singleton.mp h) (by decide : (1 : Fin 2) ≠ 0), List.not_mem_nil⟩)]
      rfl
    rw [hst, GatherDims.batchCoord_eq_zero _ _ _ List.not_mem_nil, hoff]
    omega

/-! ## The host's ordinary product -/

/-- The dimension numbers of an ordinary [a, n] × [n, b] product, over any witness of their well-formedness. -/
abbrev productDims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- The host's ordinary product on the extended reals: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (productDims wf) prec L R (ix2 p q) = ∑ k : Fin n, L (ix2 p k) * R (ix2 k q) := by
  show FloatOps.dotGeneral (productDims wf) prec .single L R (ix2 p q) = _
  rw [Ideal.dotGeneral_apply, ← Equiv.sum_comp (contrEquiv1 (productDims wf) n rfl rfl).symm]
  refine Finset.sum_congr rfl fun k _ => ?_
  have hk := contrEquiv1_symm_val (productDims wf) n rfl rfl k
  have el : (productDims wf).lhsIdx (ix2 p q) ((contrEquiv1 (productDims wf) n rfl rfl).symm k) = ix2 p k :=
    funext fun ax => Fin.ext (by
      match ax with
      | ⟨0, _⟩ => rfl
      | ⟨1, _⟩ => exact ((productDims wf).lhsIdx_val_of_single rfl _ _).trans hk)
  have er : (productDims wf).rhsIdx (ix2 p q) ((contrEquiv1 (productDims wf) n rfl rfl).symm k) = ix2 k q :=
    funext fun ax => Fin.ext (by
      match ax with
      | ⟨0, _⟩ => exact ((productDims wf).rhsIdx_val_of_single rfl _ _).trans hk
      | ⟨1, _⟩ => rfl)
  rw [el, er]

end Cert.EdgeForms

end
-- ==== Proof.LibTranspose.lean ====
/-
  A two-axis array with its axes exchanged, read at an entry.

  Exchanging the two axes of an [a, b] array gives a [b, a] array whose entry (j, i) is the entry (i, j) of the
  original, whatever the extents and the element type.
-/
import Idealize.ShloMosaic.Lib.Pipeline.Value
import Idealize.ShloMosaic.Lib.ValueIdx

noncomputable section

namespace Cert.Transpose

open Idealize.ShloMosaic Idealize.ShloMosaic.ValueIdx

/-- A transposed two-axis array read at (j, i) is the array at (i, j). -/
theorem swapped_apply {α : Type} {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun ax => by
    match ax with
    | ⟨0, _⟩ => rfl
    | ⟨1, _⟩ => rfl

end Cert.Transpose

end
-- ==== Proof.Layout.lean ====
/-
  The host's re-layings of the packed form, read entry by entry.

  * A [100000, 64] array re-read in row-major order as [50000, 128] has at (r, c) the entry of node 2 r + c / 64,
    feature c % 64; re-read back it has at (n, j) the entry (n / 2, (n % 2) · 64 + j).
  * The [128, 128] weight is put together from the transposed [64, 64] weight and a zero block: [Wᵀ 0] above [0 Wᵀ].
    Its entry (k, c) is W (c % 64, k % 64) when k and c lie in the same half and 0 otherwise.
  * The bias row is the bias laid twice end to end and kept as one row of 128.
-/
import proofs.«143869_j25744033973010_2_alg».proof.Proof.Spec
import proofs.«143869_j25744033973010_2_alg».proof.Proof.LibColumnJoin
import proofs.«143869_j25744033973010_2_alg».proof.Proof.LibEdgeForms
import proofs.«143869_j25744033973010_2_alg».proof.Proof.LibTranspose
import Idealize.ShloMosaic.Lib.Pipeline.Value
import Idealize.ShloMosaic.Lib.ValueLayout
import Idealize.ShloMosaic.PureOps.Ideal.Laws

noncomputable section

namespace Cert.GraphConv

open Idealize.ShloMosaic Idealize.ShloMosaic.ValueIdx

variable {α : Type}

/-! ## Two nodes per row and back -/

/-- Re-reading node features two nodes per row is `pack`. -/
theorem shapeCast_pack (x : Nodes.Idx → α) (h : Nodes.ShapeCasts Packed) : shapeCast Packed x h = pack x := by
  funext j
  refine shapeCast_apply x h j _ ?_
  rw [Shape.rowMajor_val_two, Shape.rowMajor_val_two]
  show (2 * (j 0).val + (j 1).val / 64) * 64 + (j 1).val % 64 = (j 0).val * 128 + (j 1).val
  omega

/-- Re-reading a packed array one node per row is `unpack`. -/
theorem shapeCast_unpack (g : Packed.Idx → α) (h : Packed.ShapeCasts Nodes) : shapeCast Nodes g h = unpack g := by
  funext i
  refine shapeCast_apply g h i _ ?_
  rw [Shape.rowMajor_val_two, Shape.rowMajor_val_two]
  show (i 0).val / 2 * 128 + ((i 0).val % 2 * 64 + (i 1).val) = (i 0).val * 64 + (i 1).val
  omega

/-! ## The block-diagonal weight -/

/-- [Wᵀ 0] above [0 Wᵀ], for any zero block `Z`, is `bd W`. -/
theorem blockDiag_eq_bd (W Z : Wt.Idx → EReal) (hZ : ∀ i, Z i = 0) (ht : Wt.Transposes [1, 0] Wt)
    (h1 : Shape.Concatenates [Wt, Wt] ⟨2, ![64, 128]⟩ 1)
    (h0 : Shape.Concatenates [(⟨2, ![64, 128]⟩ : Shape), ⟨2, ![64, 128]⟩] WtBd 0) :
    concatenate WtBd 0
        [⟨⟨2, ![64, 128]⟩, concatenate ⟨2, ![64, 128]⟩ 1 [⟨Wt, transpose Wt [1, 0] W ht⟩, ⟨Wt, Z⟩] h1⟩,
         ⟨⟨2, ![64, 128]⟩, concatenate ⟨2, ![64, 128]⟩ 1 [⟨Wt, Z⟩, ⟨Wt, transpose Wt [1, 0] W ht⟩] h1⟩] h0
      = bd W := by
  funext i
  obtain ⟨k, c, rfl⟩ : ∃ (k c : Fin 128), i = ix2 k c := ⟨i 0, i 1, eq_ix2 i⟩
  have hk := k.isLt
  have hc := c.isLt
  show _ = (if k.val / 64 = c.val / 64 then
      W (ix2 (⟨c.val % 64, Nat.mod_lt _ (by decide)⟩ : Fin 64) (⟨k.val % 64, Nat.mod_lt _ (by decide)⟩ : Fin 64)) else 0)
  by_cases hk64 : k.val < 64
  · rw [Cert.EdgeForms.stacked_top_apply _ _ h0 k c hk64]
    by_cases hc64 : c.val < 64
    · rw [if_pos (by omega)]
      refine (Cert.ColumnJoin.left_apply _ _ h1 (⟨k.val, hk64⟩ : Fin 64) (⟨c.val, hc64⟩ : Fin 64)).trans ?_
      refine (Cert.Transpose.swapped_apply W ht (⟨c.val, hc64⟩ : Fin 64) (⟨k.val, hk64⟩ : Fin 64)).trans ?_
      exact congrArg W (funext fun a => Fin.ext (by
        match a with
        | ⟨0, _⟩ => show c.val = c.val % 64; omega
        | ⟨1, _⟩ => show k.val = k.val % 64; omega))
    · rw [if_neg (by omega)]
      have e : c = (⟨64 + (⟨c.val - 64, by omega⟩ : Fin 64).val, by show 64 + (c.val - 64) < 128; omega⟩ : Fin 128) :=
        Fin.ext (by show c.val = 64 + (c.val - 64); omega)
      rw [e]
      exact (Cert.ColumnJoin.right_apply _ _ h1 (⟨k.val, hk64⟩ : Fin 64) (⟨c.val - 64, by omega⟩ : Fin 64)).trans (hZ _)
  · rw [Cert.EdgeForms.stacked_bottom_apply _ _ h0 k c (by omega) (by omega)]
    by_cases hc64 : c.val < 64
    · rw [if_neg (by omega)]
      exact (Cert.ColumnJoin.left_apply _ _ h1 (⟨k.val - 64, by omega⟩ : Fin 64) (⟨c.val, hc64⟩ : Fin 64)).trans (hZ _)
    · rw [if_pos (by omega)]
      have e : c = (⟨64 + (⟨c.val - 64, by omega⟩ : Fin 64).val, by show 64 + (c.val - 64) < 128; omega⟩ : Fin 128) :=
        Fin.ext (by show c.val = 64 + (c.val - 64); omega)
      rw [e]
      refine (Cert.ColumnJoin.right_apply _ _ h1 (⟨k.val - 64, by omega⟩ : Fin 64) (⟨c.val - 64, by omega⟩ : Fin 64)).trans ?_
      refine (Cert.Transpose.swapped_apply W ht (⟨c.val - 64, by omega⟩ : Fin 64) (⟨k.val - 64, by omega⟩ : Fin 64)).trans ?_
      exact congrArg W (funext fun a => Fin.ext (by
        match a with
        | ⟨0, _⟩ => show c.val - 64 = (64 + (c.val - 64)) % 64; omega
        | ⟨1, _⟩ => show k.val - 64 = k.val % 64; omega))

/-- A splat of the f32 zero pattern to a [64, 64] block is zero at every entry. -/
theorem zeroBlock_apply (h : (⟨0, ![]⟩ : Shape).BroadcastsInDim Wt ![]) (i : Wt.Idx) :
    broadcastInDim Wt ![] h (constant (F := Ideal) ⟨0, ![]⟩ .f32 0x00000000#32) i = 0 :=
  (broadcastInDim_apply _ h _ i ix0 (fun a => a.elim0)).trans Ideal.ofBits_zero_f32

/-! ## The bias row -/

/-- The bias laid twice end to end and kept as one row is `dup b`. -/
theorem biasRow_eq_dup (b : Bias.Idx → EReal) (hc : Shape.Concatenates [Bias, Bias] ⟨1, ![128]⟩ 0)
    (hs : (⟨1, ![128]⟩ : Shape).ShapeCasts BiasRow) :
    shapeCast BiasRow (concatenate ⟨1, ![128]⟩ 0 [⟨Bias, b⟩, ⟨Bias, b⟩] hc) hs = dup b := by
  funext i
  obtain ⟨u, c, rfl⟩ : ∃ (u : Fin 1) (c : Fin 128), i = ix2 u c := ⟨i 0, i 1, eq_ix2 i⟩
  have hc' := c.isLt
  rw [shapeCast_a_1a_apply]
  show _ = b (ix1 (⟨c.val % 64, Nat.mod_lt _ (by decide)⟩ : Fin 64))
  by_cases hc64 : c.val < 64
  · refine (concatenate_pair_apply_left 0 b b hc (ix1 c) rfl (ix1 (⟨c.val, hc64⟩ : Fin 64)) fun a => ?_).trans ?_
    · match a with
      | ⟨0, _⟩ => rfl
    · exact congrArg b (funext fun a => Fin.ext (by
        match a with
        | ⟨0, _⟩ => show c.val = c.val % 64; omega))
  · refine (concatenate_pair_apply_right 0 b b hc (ix1 c) rfl rfl (ix1 (⟨c.val - 64, by omega⟩ : Fin 64))
      (fun a ha => ?_) ?_).trans ?_
    · match a with
      | ⟨0, _⟩ => exact absurd rfl ha
    · show c.val - 64 + 64 = c.val
      omega
    · exact congrArg b (funext fun a => Fin.ext (by
        match a with
        | ⟨0, _⟩ => show c.val - 64 = c.val % 64; omega))

end Cert.GraphConv

end
-- ==== Proof.PackedLaw.lean ====
/-
  The packed layer is the layer.

  Row r of the packed arrays holds nodes 2 r and 2 r + 1; column c belongs to node 2 r + c / 64 and is its feature
  c % 64.  The [128, 128] weight is zero wherever its row and its column lie in different halves, and a product with
  zero is zero on the extended reals whatever the other factor, so of the 128 terms of a packed product only the 64 of
  the column's own half remain, and they are the layer's terms for that node.  The bias is added after both products
  in the packed form and between them in the layer; addition on the extended reals commutes and associates.
-/
import proofs.«143869_j25744033973010_2_alg».proof.Proof.Spec

noncomputable section

open scoped BigOperators

namespace Cert.GraphConv

open Idealize.ShloMosaic Idealize.ShloMosaic.ValueIdx

/-- A packed product at row `r`, column `c`: the 64 terms of node `2 r + c / 64` against row `c % 64` of the weight. -/
theorem sum_pack_bd (f : Nodes.Idx → EReal) (W : Wt.Idx → EReal) (r : Fin 50000) (c : Fin 128) :
    ∑ k : Fin 128, pack f (ix2 r k) * bd W (ix2 k c)
      = ∑ k : Fin 64, f (ix2 (⟨2 * r.val + c.val / 64, by have := r.isLt; have := c.isLt; omega⟩ : Fin 100000) k)
          * W (ix2 (⟨c.val % 64, Nat.mod_lt _ (by decide)⟩ : Fin 64) k) := by
  have hb : ∀ s : Fin 64, c.val / 64 * 64 + s.val < 128 := fun s => by have := c.isLt; have := s.isLt; omega
  have h := BlockDiag.sum_blockDiag (M := EReal) zero_mul mul_zero one_mul (N := 128) (n := 64) (by decide) (c.val / 64) hb
    (fun j => pack f (ix2 r j)) (fun j => if j.val / 64 = c.val / 64 then 1 else 0)
    (fun s => W (ix2 (⟨c.val % 64, Nat.mod_lt _ (by decide)⟩ : Fin 64) s)) (fun _ => rfl)
  refine Eq.trans (Finset.sum_congr rfl fun k _ => ?_) (h.trans (Finset.sum_congr rfl fun s _ => ?_))
  · refine congrArg (pack f (ix2 r k) * ·) ?_
    show (if k.val / 64 = c.val / 64 then
        W (ix2 (⟨c.val % 64, Nat.mod_lt _ (by decide)⟩ : Fin 64) (⟨k.val % 64, Nat.mod_lt _ (by decide)⟩ : Fin 64)) else 0)
      = (if k.val / 64 = c.val / 64 then (1 : EReal) else 0)
          * W (ix2 (⟨c.val % 64, Nat.mod_lt _ (by decide)⟩ : Fin 64) (⟨k.val % 64, Nat.mod_lt _ (by decide)⟩ : Fin 64))
    split_ifs
    · rw [one_mul]
    · rw [zero_mul]
  · refine congrArg (· * W (ix2 (⟨c.val % 64, Nat.mod_lt _ (by decide)⟩ : Fin 64) s)) ?_
    show f (ix2 (⟨2 * r.val + (c.val / 64 * 64 + s.val) / 64, _⟩ : Fin 100000)
        (⟨(c.val / 64 * 64 + s.val) % 64, _⟩ : Fin 64)) = _
    have hs := s.isLt
    have e1 : 2 * r.val + (c.val / 64 * 64 + s.val) / 64 = 2 * r.val + c.val / 64 := by omega
    have e2 : (c.val / 64 * 64 + s.val) % 64 = s.val := by omega
    exact congrArg f (funext fun a => Fin.ext (by
      match a with
      | ⟨0, _⟩ => exact e1
      | ⟨1, _⟩ => exact e2))

/-- The packed layer at row `r`, column `c` is the layer at node `2 r + c / 64`, feature `c % 64`. -/
theorem packedLinAt_pack (agg h : Nodes.Idx → EReal) (Wrel : Wt.Idx → EReal) (b : Bias.Idx → EReal) (Wroot : Wt.Idx → EReal)
    (r : Fin 50000) (c : Fin 128) :
    packedLinAt (pack agg) (pack h) (bd Wrel) (bd Wroot) (dup b) r c
      = linAt agg h Wrel b Wroot (⟨2 * r.val + c.val / 64, by have := r.isLt; have := c.isLt; omega⟩ : Fin 100000)
          (⟨c.val % 64, Nat.mod_lt _ (by decide)⟩ : Fin 64) := by
  unfold packedLinAt linAt
  rw [sum_pack_bd, sum_pack_bd]
  exact add_right_comm _ _ _

/-- Node `n`, feature `j` of the unpacked array is the packed entry that holds it. -/
theorem unpack_index (n : Fin 100000) (j : Fin 64) :
    (⟨2 * (n.val / 2) + (n.val % 2 * 64 + j.val) / 64, by have := n.isLt; have := j.isLt; omega⟩ : Fin 100000) = n
    ∧ (⟨(n.val % 2 * 64 + j.val) % 64, Nat.mod_lt _ (by decide)⟩ : Fin 64) = j := by
  have := n.isLt; have := j.isLt
  exact ⟨Fin.ext (by show 2 * (n.val / 2) + (n.val % 2 * 64 + j.val) / 64 = n.val; omega),
    Fin.ext (by show (n.val % 2 * 64 + j.val) % 64 = j.val; omega)⟩

/-- The packed layer, laid back one node per row, is the layer. -/
theorem unpack_packedLin (agg h : Nodes.Idx → EReal) (Wrel : Wt.Idx → EReal) (b : Bias.Idx → EReal) (Wroot : Wt.Idx → EReal) :
    unpack (packedLin (pack agg) (pack h) (bd Wrel) (bd Wroot) (dup b)) = lin agg h Wrel b Wroot := by
  funext i
  obtain ⟨n, j, rfl⟩ : ∃ (n : Fin 100000) (j : Fin 64), i = ix2 n j := ⟨i 0, i 1, eq_ix2 i⟩
  show packedLinAt (pack agg) (pack h) (bd Wrel) (bd Wroot) (dup b) (⟨n.val / 2, _⟩ : Fin 50000) (⟨n.val % 2 * 64 + j.val, _⟩ : Fin 128)
    = linAt agg h Wrel b Wroot n j
  rw [packedLinAt_pack]
  obtain ⟨e1, e2⟩ := unpack_index n j
  exact congrArg₂ (linAt agg h Wrel b Wroot) e1 e2

/-- The same with the positive part taken: it is taken entry by entry, in either layout. -/
theorem unpack_reluP_packedLin (agg h : Nodes.Idx → EReal) (Wrel : Wt.Idx → EReal) (b : Bias.Idx → EReal) (Wroot : Wt.Idx → EReal) :
    unpack (reluP (packedLin (pack agg) (pack h) (bd Wrel) (bd Wroot) (dup b))) = relu (lin agg h Wrel b Wroot) := by
  rw [← unpack_packedLin agg h Wrel b Wroot]
  rfl

end Cert.GraphConv

end
-- ==== Proof.KernelValue.lean ====
/-
  What the idealized kernel's program leaves in its result array, as a function of the launch contents of its arguments.

  The first region is entered with the neighbour sums of the features and the features themselves two nodes per row,
  the two block-diagonal weights and the doubled bias; it leaves the packed first layer with its positive part taken,
  which one node per row is the first layer `h₁`.  The second region is entered with the neighbour sums of `h₁` and
  `h₁` itself, packed, and the second layer's weights and bias; it leaves the packed second layer, and the program's
  result is that array one node per row: the two layers of the specification, with the neighbour sums taken as the
  kernel's program takes them.
-/
import proofs.«143869_j25744033973010_2_alg».proof.Proof.Gen.KernelIdeal.Frame
import proofs.«143869_j25744033973010_2_alg».proof.Proof.KernelHost
import proofs.«143869_j25744033973010_2_alg».proof.Proof.Regions
import proofs.«143869_j25744033973010_2_alg».proof.Proof.Layout
import proofs.«143869_j25744033973010_2_alg».proof.Proof.PackedLaw

noncomputable section

namespace Cert.GraphConv.KernelValue

open Cert.KernelIdeal Cert.KernelIdeal.Gen
open Idealize.ShloMosaic Idealize.ShloMosaic.TcCoe Idealize.SL.Sem Idealize.ShloMosaic.StableHlo
open Cert.GraphConv

/-- The neighbour sums of an array of node features, as the kernel's program takes them from the edge table. -/
def aggK (e : (⟨S2x1600000, .i32⟩ : BufTy).Contents (Elt Ideal)) (h : Nodes.Idx → EReal) : Nodes.Idx → EReal :=
  Host.aggV (Host.srcOf e) (Host.dstOf e) h

variable (m : (ℓ : Loc nD τ sig) → Buf (Elt Ideal) ℓ) (ρ : Dev nD → PrngReg) (c : Dev nD)

/-- The first layer of the kernel's program, one node per row. -/
abbrev hidden : Nodes.Idx → EReal :=
  relu (lin (aggK (m ((c : Thread nD τ).loc main_arg1)) (m ((c : Thread nD τ).loc main_arg0))) (m ((c : Thread nD τ).loc main_arg0))
    (m ((c : Thread nD τ).loc main_arg2)) (m ((c : Thread nD τ).loc main_arg3)) (m ((c : Thread nD τ).loc main_arg4)))

/-! ## What the first region is entered with -/

theorem entry0_sums : (V1 m ρ c main_v16 : Packed.Idx → EReal)
    = pack (aggK (m ((c : Thread nD τ).loc main_arg1)) (m ((c : Thread nD τ).loc main_arg0))) :=
  (Host.pre_sums (W0 m ρ c)).trans (shapeCast_pack _ _)

theorem entry0_features : (V1 m ρ c main_v17 : Packed.Idx → EReal) = pack (m ((c : Thread nD τ).loc main_arg0)) :=
  (Host.pre_features (W0 m ρ c)).trans (shapeCast_pack _ _)

theorem entry0_wrel : (V1 m ρ c main_v23 : WtBd.Idx → EReal) = bd (m ((c : Thread nD τ).loc main_arg2)) :=
  (Host.pre_wrel (W0 m ρ c)).trans (blockDiag_eq_bd _ _ (zeroBlock_apply _) _ _ _)

theorem entry0_wroot : (V1 m ρ c main_v26 : WtBd.Idx → EReal) = bd (m ((c : Thread nD τ).loc main_arg4)) :=
  (Host.pre_wroot (W0 m ρ c)).trans (blockDiag_eq_bd _ _ (zeroBlock_apply _) _ _ _)

theorem entry0_bias : (V1 m ρ c main_v28 : BiasRow.Idx → EReal) = dup (m ((c : Thread nD τ).loc main_arg3)) :=
  (Host.pre_bias (W0 m ρ c)).trans (biasRow_eq_dup _ _ _)

/-! ## What the first region leaves -/

theorem region0_out : (W2 m ρ c (Proc.devRef .tc main_v29) : Packed.Idx → EReal)
    = reluP (packedLin (pack (aggK (m ((c : Thread nD τ).loc main_arg1)) (m ((c : Thread nD τ).loc main_arg0))))
        (pack (m ((c : Thread nD τ).loc main_arg0))) (bd (m ((c : Thread nD τ).loc main_arg2)))
        (bd (m ((c : Thread nD τ).loc main_arg4))) (dup (m ((c : Thread nD τ).loc main_arg3)))) :=
  (W2_arr m ρ c 5).trans ((Kernel.region0_array (V1 m ρ) c).trans
    (congrArg reluP (congr (congr (congr (congr (congrArg packedLin (entry0_sums m ρ c)) (entry0_features m ρ c))
      (entry0_wrel m ρ c)) (entry0_wroot m ρ c)) (entry0_bias m ρ c))))

theorem hidden_eq : unpack (W2 m ρ c (Proc.devRef .tc main_v29) : Packed.Idx → EReal) = hidden m c :=
  (congrArg unpack (region0_out m ρ c)).trans (unpack_reluP_packedLin _ _ _ _ _)

/-! ## What the second region is entered with -/

theorem kept_src : W2 m ρ c (Proc.devRef .tc main_v1) = Host.srcOf (m ((c : Thread nD τ).loc main_arg1)) :=
  (W2_of_ne m ρ c main_v1 (by decide)).trans (Host.pre_src (W0 m ρ c))

theorem kept_dst : W2 m ρ c (Proc.devRef .tc main_v3) = Host.dstOf (m ((c : Thread nD τ).loc main_arg1)) :=
  (W2_of_ne m ρ c main_v3 (by decide)).trans (Host.pre_dst (W0 m ρ c))

theorem kept_arg5 : W2 m ρ c (Proc.devRef .tc main_arg5) = m ((c : Thread nD τ).loc main_arg5) :=
  (W2_of_ne m ρ c main_arg5 (by decide)).trans (Host.pre_arg5 (W0 m ρ c))

theorem kept_arg6 : W2 m ρ c (Proc.devRef .tc main_arg6) = m ((c : Thread nD τ).loc main_arg6) :=
  (W2_of_ne m ρ c main_arg6 (by decide)).trans (Host.pre_arg6 (W0 m ρ c))

theorem kept_arg7 : W2 m ρ c (Proc.devRef .tc main_arg7) = m ((c : Thread nD τ).loc main_arg7) :=
  (W2_of_ne m ρ c main_arg7 (by decide)).trans (Host.pre_arg7 (W0 m ρ c))

theorem relaid : shapeCast S100000x64 (W2 m ρ c (Proc.devRef .tc main_v29)) shapeCasts_S50000x128_S100000x64 = hidden m c :=
  (shapeCast_unpack _ _).trans (hidden_eq m ρ c)

theorem entry1_sums : (V3 m ρ c main_v42 : Packed.Idx → EReal)
    = pack (aggK (m ((c : Thread nD τ).loc main_arg1)) (hidden m c)) :=
  (Host.mid_sums (W2 m ρ c)).trans ((shapeCast_pack _ _).trans
    (congrArg pack (congr (congr (congrArg Host.aggV (kept_src m ρ c)) (kept_dst m ρ c)) (relaid m ρ c))))

theorem entry1_features : (V3 m ρ c main_v43 : Packed.Idx → EReal) = pack (hidden m c) :=
  (Host.mid_features (W2 m ρ c)).trans ((shapeCast_pack _ _).trans (congrArg pack (relaid m ρ c)))

theorem entry1_wrel : (V3 m ρ c main_v49 : WtBd.Idx → EReal) = bd (m ((c : Thread nD τ).loc main_arg5)) :=
  (Host.mid_wrel (W2 m ρ c)).trans ((congrArg Host.bdK (kept_arg5 m ρ c)).trans (blockDiag_eq_bd _ _ (zeroBlock_apply _) _ _ _))

theorem entry1_wroot : (V3 m ρ c main_v52 : WtBd.Idx → EReal) = bd (m ((c : Thread nD τ).loc main_arg7)) :=
  (Host.mid_wroot (W2 m ρ c)).trans ((congrArg Host.bdK (kept_arg7 m ρ c)).trans (blockDiag_eq_bd _ _ (zeroBlock_apply _) _ _ _))

theorem entry1_bias : (V3 m ρ c main_v54 : BiasRow.Idx → EReal) = dup (m ((c : Thread nD τ).loc main_arg6)) :=
  (Host.mid_bias (W2 m ρ c)).trans ((congrArg Host.biasK (kept_arg6 m ρ c)).trans (biasRow_eq_dup _ _ _))

/-! ## What the second region leaves, and the result -/

theorem region1_out : (W4 m ρ c (Proc.devRef .tc main_v55) : Packed.Idx → EReal)
    = packedLin (pack (aggK (m ((c : Thread nD τ).loc main_arg1)) (hidden m c))) (pack (hidden m c))
        (bd (m ((c : Thread nD τ).loc main_arg5))) (bd (m ((c : Thread nD τ).loc main_arg7)))
        (dup (m ((c : Thread nD τ).loc main_arg6))) :=
  (W4_arr m ρ c 5).trans ((Kernel.region1_array (V3 m ρ) c).trans
    (congr (congr (congr (congr (congrArg packedLin (entry1_sums m ρ c)) (entry1_features m ρ c))
      (entry1_wrel m ρ c)) (entry1_wroot m ρ c)) (entry1_bias m ρ c)))

/-- The program's result array: the two layers over the kernel's neighbour sums. -/
theorem result : (W5 m ρ c (Proc.devRef .tc main_v56) : Nodes.Idx → EReal)
    = out (aggK (m ((c : Thread nD τ).loc main_arg1))) (m ((c : Thread nD τ).loc main_arg0))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  (Host.post_result (W4 m ρ c)).trans ((shapeCast_unpack _ _).trans
    ((congrArg unpack (region1_out m ρ c)).trans (unpack_packedLin _ _ _ _ _)))

end Cert.GraphConv.KernelValue

end
-- ==== Proof.RefSide.lean ====
/-
  The reference program's value as the two-layer graph convolution of Spec.lean.

  The reference computes, for each layer, the neighbour sums by a gather of the source rows followed by a scatter-add
  onto zero at the destination rows (kept here as one opaque map aggR of the node features), two matrix products with
  transposed [64, 64] weights, and a bias broadcast along the nodes.  Read entry by entry, a product with the transposed
  weight is ∑ k, a (p, k) · W (q, k), which is the layer's sum; the positive part is the maximum with the zero array.
-/
import proofs.«143869_j25744033973010_2_alg».proof.Proof.Spec
import proofs.«143869_j25744033973010_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.GraphConv.Ref

open Idealize.ShloMosaic Idealize.ShloMosaic.ValueIdx
open Cert.ReferenceIdeal Cert.ReferenceIdeal.Read

/-- The reference's neighbour sums of the node features h over the edge table e: gather the source rows, add them onto zero at the destination rows. -/
def aggR (e : (⟨S2x1600000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v11 (F := Ideal)) (val_main_v12 (F := Ideal) e)
    (Host.gather gather_S100000x64_S1600000x1_S1600000x64_1_0_n_n_0_1_164 h (val_main_v9 (F := Ideal) e))

/-- The first layer's neighbour sums are aggR of the input features. -/
private theorem v13_eq (x0 : (⟨S100000x64, .f32⟩ : BufTy).Contents (Elt Ideal)) (x1 : (⟨S2x1600000, .i32⟩ : BufTy).Contents (Elt Ideal)) :
    val_main_v13 (F := Ideal) x0 x1 = aggR x1 x0 := by
  unfold val_main_v13 val_main_v10 aggR
  rfl

/-- The second layer's neighbour sums are aggR of the first layer's output: the zero array, the destination column and
    the source column are built a second time by the same operations. -/
private theorem v32_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v32 (F := Ideal) x0 x1 x2 x3 x4 = aggR x1 (val_main_v22 (F := Ideal) x0 x1 x2 x3 x4) := by
  unfold val_main_v32 val_main_v29 aggR
  generalize val_main_v22 (F := Ideal) x0 x1 x2 x3 x4 = y
  have e30 : val_main_v30 (F := Ideal) = val_main_v11 (F := Ideal) := by
    unfold val_main_v30 val_main_v11 val_main_cst_3 val_main_cst; rfl
  have e31 : val_main_v31 (F := Ideal) x1 = val_main_v12 (F := Ideal) x1 := by
    unfold val_main_v31 val_main_v12; rfl
  have e28 : val_main_v28 (F := Ideal) x1 = val_main_v9 (F := Ideal) x1 := by
    unfold val_main_v28 val_main_v9 val_main_v27 val_main_v8 val_main_v24 val_main_v5 val_main_v26 val_main_v7
      val_main_v23 val_main_v4 val_main_v25 val_main_v6 val_main_c_1 val_main_c val_main_c_2 val_main_c_0
    rfl
  rw [e30, e31, e28]

/-- The index functions of the generated reads, in coordinates. -/
private theorem lidx_eq (p : Fin 100000) (q k : Fin 64) : lidx_main_v15 (ix2 p q) k = ix2 p k :=
  funext fun a => Fin.ext (by match a with | ⟨0, _⟩ => rfl | ⟨1, _⟩ => rfl)

private theorem ridxT_eq (p : Fin 100000) (q k : Fin 64) : idx_main_v14 (ridx_main_v15 (ix2 p q) k) = ix2 q k :=
  funext fun a => Fin.ext (by match a with | ⟨0, _⟩ => rfl | ⟨1, _⟩ => rfl)

private theorem bidx_eq (p : Fin 100000) (q : Fin 64) : idx_main_v16 (idx_main_v17 (ix2 p q)) = ix1 q :=
  funext fun a => Fin.ext (by match a with | ⟨0, _⟩ => rfl)

/-- The first layer, as an array: two products with transposed weights and the bias row are the layer's sums. -/
private theorem v21_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v21 (F := Ideal) x0 x1 x2 x3 x4 = lin (val_main_v13 (F := Ideal) x0 x1) x0 x2 x3 x4 := by
  generalize hy : val_main_v13 (F := Ideal) x0 x1 = y
  funext i
  obtain ⟨p, q, rfl⟩ : ∃ (p : Fin 100000) (q : Fin 64), i = ix2 p q := ⟨i 0, i 1, eq_ix2 i⟩
  rw [lin_apply, val_main_v21_apply, val_main_v18_apply, val_main_v15_apply, val_main_v17_apply, val_main_v16_apply,
    val_main_v20_apply, hy, bidx_eq]
  unfold linAt
  simp only [Ideal.addf_def, val_main_v14_apply, val_main_v19_apply]
  refine congrArg₂ (· + ·) (congrArg₂ (· + ·) (Finset.sum_congr rfl fun k _ => ?_) rfl) (Finset.sum_congr rfl fun k _ => ?_)
  · rw [lidx_eq, ridxT_eq]
  · congr 2 <;> exact funext fun a => Fin.ext (by match a with | ⟨0, _⟩ => rfl | ⟨1, _⟩ => rfl)

/-- Every entry of the zero array is 0. -/
private theorem zeros_apply (i : S100000x64.Idx) : val_main_call0_v0 (F := Ideal) i = 0 := by
  rw [val_main_call0_v0_apply, val_main_call0_cst_apply]
  exact Ideal.ofBits_zero_f32

/-- The positive part between the layers. -/
private theorem v22_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v22 (F := Ideal) x0 x1 x2 x3 x4 = relu (val_main_v21 (F := Ideal) x0 x1 x2 x3 x4) := by
  unfold val_main_v22
  generalize val_main_v21 (F := Ideal) x0 x1 x2 x3 x4 = y
  funext i
  unfold relu
  rw [maximumf_apply, zeros_apply]

/-- The second layer, as an array. -/
private theorem v40_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v40 (F := Ideal) x0 x1 x2 x3 x4 x5 x6 x7 =
      lin (val_main_v32 (F := Ideal) x0 x1 x2 x3 x4) (val_main_v22 (F := Ideal) x0 x1 x2 x3 x4) x5 x6 x7 := by
  generalize hy : val_main_v32 (F := Ideal) x0 x1 x2 x3 x4 = y
  generalize hz : val_main_v22 (F := Ideal) x0 x1 x2 x3 x4 = z
  funext i
  obtain ⟨p, q, rfl⟩ : ∃ (p : Fin 100000) (q : Fin 64), i = ix2 p q := ⟨i 0, i 1, eq_ix2 i⟩
  rw [lin_apply, val_main_v40_apply, val_main_v37_apply, val_main_v34_apply, val_main_v36_apply, val_main_v35_apply,
    val_main_v39_apply, hy, hz]
  unfold linAt
  simp only [Ideal.addf_def, val_main_v33_apply, val_main_v38_apply]
  refine congrArg₂ (· + ·) (congrArg₂ (· + ·) (Finset.sum_congr rfl fun k _ => ?_) ?_) (Finset.sum_congr rfl fun k _ => ?_)
  · congr 2 <;> exact funext fun a => Fin.ext (by match a with | ⟨0, _⟩ => rfl | ⟨1, _⟩ => rfl)
  · congr 1; exact funext fun a => Fin.ext (by match a with | ⟨0, _⟩ => rfl)
  · congr 2 <;> exact funext fun a => Fin.ext (by match a with | ⟨0, _⟩ => rfl | ⟨1, _⟩ => rfl)

/-- The reference's result is the two-layer graph convolution of the specification, with aggR as the neighbour sums. -/
theorem ref_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v40 (F := Ideal) x0 x1 x2 x3 x4 x5 x6 x7 = Cert.GraphConv.out (aggR x1) x0 x2 x3 x4 x5 x6 x7 := by
  unfold Cert.GraphConv.out
  rw [v40_eq, v32_eq, v22_eq, v21_eq, v13_eq]

end Cert.GraphConv.Ref

end
-- ==== Proof.Bridge.lean ====
/-
  The two programs take the neighbour sums in the same way.

  Both gather the source rows of the node features and add them onto zero at the destination rows, the two columns
  taken from the edge table by the same operations; the kernel's program also narrows the features before the gather
  and widens the gathered rows after it, and on the extended reals a change of format is the identity.  So the two
  maps from node features to neighbour sums are one function.
-/
import proofs.«143869_j25744033973010_2_alg».proof.Proof.KernelValue
import proofs.«143869_j25744033973010_2_alg».proof.Proof.RefSide

noncomputable section

namespace Cert.GraphConv.Bridge

open Idealize.ShloMosaic Idealize.ShloMosaic.TcCoe Idealize.SL.Sem
open Cert.ReferenceIdeal.Read

/-- The kernel's neighbour sums are the reference's. -/
theorem aggK_eq_aggR (e : (⟨Cert.ReferenceIdeal.S2x1600000, .i32⟩ : BufTy).Contents (Elt Ideal)) :
    Cert.GraphConv.KernelValue.aggK e = Cert.GraphConv.Ref.aggR e := by
  funext h
  unfold Cert.GraphConv.KernelValue.aggK Cert.GraphConv.Host.aggV Cert.GraphConv.Host.srcOf Cert.GraphConv.Host.dstOf
    Cert.GraphConv.Ref.aggR
    val_main_v11 val_main_v12 val_main_v9 val_main_v8 val_main_v7 val_main_v6 val_main_v5 val_main_v4 val_main_v3
    val_main_v2 val_main_v1 val_main_v0 val_main_cst val_main_c val_main_c_0
  rfl

end Cert.GraphConv.Bridge

end
-- ==== Proof.lean ====
/-
  Two graph-convolution layers on lane-packed rows against the same two layers written directly.

  The kernel's program takes the neighbour sums on the host, and runs each layer's combine step
  `agg · W_relᵀ + h · W_rootᵀ + b` (with the positive part after the first layer) as one region over arrays that hold
  two consecutive nodes per row of 128, with [128, 128] weights carrying the transposed [64, 64] weight twice on the
  diagonal.  The reference takes the same neighbour sums and applies the [64, 64] weights node by node.

  On the extended reals the two agree entry by entry: a packed row's product with the block-diagonal weight keeps
  the 64 terms of the column's own node, the other 64 being products with zero, which vanish for every extended
  real; changes of float format are the identity; the order in which the bias and the two products are added does not
  matter.  No finiteness of the inputs is used.

  The three frames are the generated frame runs (the reference's is its generated run with the result dropped); the
  idealization rewrote nothing, so the kernel's idealized program is its own text read on the extended reals.
-/
import proofs.«143869_j25744033973010_2_alg».proof.Defs
import proofs.«143869_j25744033973010_2_alg».proof.Proof.Gen.Kernel
import proofs.«143869_j25744033973010_2_alg».proof.Proof.Gen.Kernel.Skeleton
import proofs.«143869_j25744033973010_2_alg».proof.Proof.Gen.Kernel.Launch
import proofs.«143869_j25744033973010_2_alg».proof.Proof.Gen.Kernel.Points
import proofs.«143869_j25744033973010_2_alg».proof.Proof.Gen.Kernel.Frame
import proofs.«143869_j25744033973010_2_alg».proof.Proof.Gen.KernelIdeal
import proofs.«143869_j25744033973010_2_alg».proof.Proof.Gen.KernelIdeal.Skeleton
import proofs.«143869_j25744033973010_2_alg».proof.Proof.Gen.KernelIdeal.Launch
import proofs.«143869_j25744033973010_2_alg».proof.Proof.Gen.KernelIdeal.Points
import proofs.«143869_j25744033973010_2_alg».proof.Proof.Gen.KernelIdeal.Frame
import proofs.«143869_j25744033973010_2_alg».proof.Proof.Gen.ReferenceIdeal
import proofs.«143869_j25744033973010_2_alg».proof.Proof.Gen.Pre_finite_inputs
import proofs.«143869_j25744033973010_2_alg».proof.Proof.Gen.ReferenceIdeal.Run
import proofs.«143869_j25744033973010_2_alg».proof.Proof.Gen.ReferenceIdeal.Read
import proofs.«143869_j25744033973010_2_alg».proof.Proof.RunValue
import proofs.«143869_j25744033973010_2_alg».proof.Proof.KernelValue
import proofs.«143869_j25744033973010_2_alg».proof.Proof.RefSide
import proofs.«143869_j25744033973010_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments as launched: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments both programs end at the two layers of the specification over one and
    the same neighbour-sum map. -/
theorem algebraic : Cert.algebraic_KernelIdeal_ReferenceIdeal := by
  intro m ρ m' ρ' _ hagree
  refine ⟨fun c => Cert.KernelIdeal.Gen.W5 m ρ c (Proc.devRef .tc Cert.KernelIdeal.main_v56),
    Cert.GraphConv.KernelRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v40_eq, Cert.GraphConv.Ref.ref_eq, h0, h1, h2, h3, h4, h5, h6, h7,
    ← Cert.GraphConv.Bridge.aggK_eq_aggR]
  exact (Cert.GraphConv.KernelValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
